-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S16x512x512 : Shape := ⟨3, ![16, 512, 512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn_part1 {F : FTy → Type} [FloatOps F] (main_v13 : IVec S_ 1) (main_v16 : IVec S16x512x512 1) : IVec S_ 1 :=
  let main_c_5 : IVec S_ 1 := constantI S_ 1 1#1
  let main_v17 : IVec S_ 1 := (fun x v => Host.reduce IntOp.andi x v reducesTo_S16x512x512_S_d0_1_2 h_S_) main_v16 main_c_5
  let main_v18 : IVec S_ 1 := andi main_v13 main_v17
  main_v18

def fn {F : FTy → Type} [FloatOps F] (main_arg0 : FVec F S16x1024x512 .f32) (main_arg1 : FVec F S16x1024x512 .f32) (main_arg2 : FVec F S16x512x512 .f32) (main_arg3 : FVec F S16x512x512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S16x512x512 .f32 := Host.absf main_arg2
  let main_cst_2 : FVec F S_ .f32 := constant S_ .f32 0x7F800000#32
  let main_v10 : FVec F S16x512x512 .f32 := broadcastInDim S16x512x512 ![] bcast_S_S16x512x512 main_cst_2
  let main_v11 : IVec S16x512x512 1 := cmpf .olt main_v9 main_v10
  let main_c_3 : IVec S_ 1 := constantI S_ 1 1#1
  let main_v12 : IVec S_ 1 := (fun x v => Host.reduce IntOp.andi x v reducesTo_S16x512x512_S_d0_1_2 h_S_) main_v11 main_c_3
  let main_v13 : IVec S_ 1 := andi main_v8 main_v12
  let main_v14 : FVec F S16x512x512 .f32 := Host.absf main_arg3
  let main_cst_4 : FVec F S_ .f32 := constant S_ .f32 0x7F800000#32
  let main_v15 : FVec F S16x512x512 .f32 := broadcastInDim S16x512x512 ![] bcast_S_S16x512x512 main_cst_4
  let main_v16 : IVec S16x512x512 1 := cmpf .olt main_v14 main_v15
  fn_part1 (F := F) main_v13 main_v16
-- ==== Kernel.lean ====
abbrev S16x1024x512 : Shape := ⟨3, ![16, 1024, 512]⟩
abbrev S16x512x512 : Shape := ⟨3, ![16, 512, 512]⟩
abbrev S1x1024x512 : Shape := ⟨3, ![1, 1024, 512]⟩
abbrev S1x512x512 : Shape := ⟨3, ![1, 512, 512]⟩
abbrev S1024x512 : Shape := ⟨2, ![1024, 512]⟩
abbrev S512x512 : Shape := ⟨2, ![512, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x512x512, .f32⟩
  | .hbm, ⟨3, _⟩ => ⟨S16x512x512, .f32⟩
  | .hbm, ⟨4, _⟩ => ⟨S16x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1024x512, .f32⟩
  | .local _ .vmem, ⟨9, _⟩ => ⟨S1x1024x512, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x512 : S1024x1.Broadcasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x512x512.size a
  hwx0_2 : ∀ i : grid0.Coords, EltTy.bits .f32 = 32 ∨ (Rect.block (s := S16x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x512x512.size a
  hwx0_3 : ∀ i : grid0.Coords, EltTy.bits .f32 = 32 ∨ (Rect.block (s := S16x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S16x1024x512.size a
  hwx0_4 : ∀ i : grid0.Coords, EltTy.bits .f32 = 32 ∨ (Rect.block (s := S16x1024x512) S1x1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x512 : Shape := ⟨3, ![16, 1024, 512]⟩
abbrev S16x512x512 : Shape := ⟨3, ![16, 512, 512]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x512x512, .f32⟩
  | .hbm, ⟨3, _⟩ => ⟨S16x512x512, .f32⟩
  | .hbm, ⟨4, _⟩ => ⟨S16x1024x512, .f32⟩
  | .hbm, ⟨5, _⟩ => ⟨S16x1024x512, .f32⟩
  | .hbm, ⟨6, _⟩ => ⟨S16x1024x1024, .f32⟩
  | .hbm, ⟨7, _⟩ => ⟨S_, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024x1, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1024x512, .f32⟩
  | .hbm, ⟨22, _⟩ => ⟨S16x1024x512, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x512_S16x512x512_S16x1024x512_2_1_1_2_0_0_wf : DotDims.WF S16x1024x512 S16x512x512 S16x1024x512 [2] [1] [1] [2] [0] [0]
  dot_S16x1024x512_S16x1024x512_S16x1024x1024_2_2_1_1_0_0_wf : DotDims.WF S16x1024x512 S16x1024x512 S16x1024x1024 [2] [2] [1] [1] [0] [0]
  dot_S16x1024x1024_S16x1024x512_S16x1024x512_2_1_1_2_0_0_wf : DotDims.WF S16x1024x1024 S16x1024x512 S16x1024x512 [2] [1] [1] [2] [0] [0]

variable [Facts₀]

def dot_S16x1024x512_S16x512x512_S16x1024x512_2_1_1_2_0_0 : DotDims S16x1024x512 S16x512x512 S16x1024x512 where
  lhsContracting := [2]
  rhsContracting := [1]
  lhsNonContracting := [1]
  rhsNonContracting := [2]
  lhsBatch := [0]
  rhsBatch := [0]
  wf := dot_S16x1024x512_S16x512x512_S16x1024x512_2_1_1_2_0_0_wf
def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf

class Facts : Prop extends Facts₀ where

variable [Facts]
-- ==== Proof.LibSoftmaxAttn.lean ====
/-
  One batch of a residual attention step, as extended reals, with no program in sight.

  Rows `x n` (queries) and rows `T m` (keys, and also the values) are projected by two square-ish matrices,
  `A = x · Wq` and `B = T · Wk`; the score of query `n` against key `m` is the inner product `S n m = ∑ d, A n d · B m d`;
  a row of scores is turned into positive weights `w n m = exp (S n m − max_m S n m)`; and the result adds to `x n c` the
  weighted average of the value rows, `(∑ m, w n m · T m c) / (∑ m, w n m)`.

  The average can be taken in two orders: normalise every weight first and then sum the weighted values
  (`outEarly`), or sum the unnormalised weighted values first and divide the total once (`outLate`). On the
  extended reals the two agree when every input entry is a real number: then every projection, score and
  row maximum is real, every weight is the exponential of a real, hence a positive real, the denominator is
  a positive real, and dividing by it is multiplying by its real reciprocal, which moves across a finite sum
  of reals. (At infinite entries the two orders need not agree: a product with an infinite factor does not
  distribute over the sum.)
-/
import Idealize.ShloMosaic.PureOps.Ideal
import Mathlib.Algebra.BigOperators.Group.Finset.Basic
import Mathlib.Algebra.Order.BigOperators.Group.Finset
import Mathlib.Data.Finset.Fold
import Mathlib.Data.EReal.Basic
import Mathlib.Analysis.SpecialFunctions.Exp

open scoped BigOperators

noncomputable section

namespace Cert.LibSoftmaxAttn

open Idealize.ShloMosaic

/-! ## The step, one batch -/

section Defs
variable {ν μ γ δ : Type} [Fintype μ] [Fintype γ] [Fintype δ]

/-- A projected row: `(x · w) n d = ∑ k, x n k · w k d`. -/
def proj {ρ : Type} (x : ρ → γ → EReal) (w : γ → δ → EReal) (n : ρ) (d : δ) : EReal := ∑ k, x n k * w k d

/-- The score of query row `n` against key row `m`: the inner product of the two projected rows. -/
def score (x : ν → γ → EReal) (T : μ → γ → EReal) (wq wk : γ → δ → EReal) (n : ν) (m : μ) : EReal :=
  ∑ d, proj x wq n d * proj T wk m d

/-- The largest score in row `n` (from `−∞`). -/
def rowTop (x : ν → γ → EReal) (T : μ → γ → EReal) (wq wk : γ → δ → EReal) (n : ν) : EReal :=
  (Finset.univ : Finset μ).fold max ⊥ (fun m => score x T wq wk n m)

/-- The unnormalised weight of key `m` for query `n`. -/
def wgt (x : ν → γ → EReal) (T : μ → γ → EReal) (wq wk : γ → δ → EReal) (n : ν) (m : μ) : EReal :=
  Ideal.exp (score x T wq wk n m - rowTop x T wq wk n)

/-- The sum of a row's weights. -/
def den (x : ν → γ → EReal) (T : μ → γ → EReal) (wq wk : γ → δ → EReal) (n : ν) : EReal :=
  ∑ m, wgt x T wq wk n m

/-- Sum the weighted values, then divide the total by the sum of the weights. -/
def outLate (x : ν → γ → EReal) (T : μ → γ → EReal) (wq wk : γ → δ → EReal) (n : ν) (c : γ) : EReal :=
  x n c + Ideal.div (∑ m, wgt x T wq wk n m * T m c) (den x T wq wk n)

/-- Divide every weight by the sum of the weights, then sum the weighted values. -/
def outEarly (x : ν → γ → EReal) (T : μ → γ → EReal) (wq wk : γ → δ → EReal) (n : ν) (c : γ) : EReal :=
  x n c + ∑ m, Ideal.div (wgt x T wq wk n m) (den x T wq wk n) * T m c

end Defs

/-! ## Sums of reals inside the extended reals -/

/-- The coercion of the reals carries a finite sum to the sum of the coercions. -/
theorem coe_sum {ι : Type} (S : Finset ι) (f : ι → ℝ) :
    ((∑ s ∈ S, f s : ℝ) : EReal) = ∑ s ∈ S, ((f s : ℝ) : EReal) := by
  classical
  induction S using Finset.induction_on with
  | empty => simp
  | insert a S ha ih => rw [Finset.sum_insert ha, Finset.sum_insert ha, EReal.coe_add, ih]

/-- An inner product of real entries is the real inner product. -/
theorem coe_dot {κ : Type} [Fintype κ] (a b : κ → ℝ) :
    ∑ k, ((a k : ℝ) : EReal) * ((b k : ℝ) : EReal) = ((∑ k, a k * b k : ℝ) : EReal) := by
  rw [coe_sum]
  exact Finset.sum_congr rfl fun k _ => (EReal.coe_mul _ _).symm

/-- The maximum (from `−∞`) of a nonempty finite family of reals is a real. -/
theorem fold_max_coe {ι : Type} [Fintype ι] [Nonempty ι] (f : ι → ℝ) :
    ∃ r : ℝ, (Finset.univ : Finset ι).fold max (⊥ : EReal) (fun i => ((f i : ℝ) : EReal)) = (r : EReal) := by
  have hlt : (Finset.univ : Finset ι).fold max (⊥ : EReal) (fun i => ((f i : ℝ) : EReal)) < ⊤ :=
    (Finset.fold_max_lt _).2 ⟨bot_lt_top, fun i _ => EReal.coe_lt_top _⟩
  obtain ⟨i0⟩ := ‹Nonempty ι›
  have hge : ((f i0 : ℝ) : EReal) ≤ (Finset.univ : Finset ι).fold max (⊥ : EReal) (fun i => ((f i : ℝ) : EReal)) :=
    (Finset.le_fold_max _).2 (Or.inr ⟨i0, Finset.mem_univ _, le_rfl⟩)
  exact ⟨_, (EReal.coe_toReal hlt.ne (ne_of_gt (lt_of_lt_of_le (EReal.bot_lt_coe _) hge))).symm⟩

/-! ## The law on one row -/

/-- For positive real weights `w` and real values `v`: the weighted total divided by the total weight is the sum of
    the values weighted by the normalised weights. -/
theorem weighted_div {ι : Type} [Fintype ι] [Nonempty ι] (w v : ι → ℝ) (hw : ∀ i, 0 < w i) :
    Ideal.div (∑ i, ((w i : ℝ) : EReal) * ((v i : ℝ) : EReal)) (∑ i, ((w i : ℝ) : EReal))
      = ∑ i, Ideal.div ((w i : ℝ) : EReal) (∑ j, ((w j : ℝ) : EReal)) * ((v i : ℝ) : EReal) := by
  have hD : (∑ i, w i) ≠ 0 := (Finset.sum_pos (fun i _ => hw i) Finset.univ_nonempty).ne'
  rw [← coe_sum, coe_dot, Ideal.div_coe hD, ← EReal.coe_mul]
  have e : ∀ i, Ideal.div ((w i : ℝ) : EReal) ((∑ j, w j : ℝ) : EReal) * ((v i : ℝ) : EReal)
      = ((w i * (1 / ∑ j, w j) * v i : ℝ) : EReal) := by
    intro i; rw [Ideal.div_coe hD, EReal.coe_mul, EReal.coe_mul]
  rw [Finset.sum_congr rfl fun i _ => e i, ← coe_sum, Finset.sum_mul]
  exact congrArg _ (Finset.sum_congr rfl fun i _ => by ring)

/-! ## The two orders agree on real inputs -/

section Law
variable {ν μ γ δ : Type} [Fintype μ] [Fintype γ] [Fintype δ] [Nonempty μ]

/-- With every entry of the four inputs a real number, normalising the weights before or after the weighted
    sum gives the same result. -/
theorem outEarly_eq_outLate (x : ν → γ → EReal) (T : μ → γ → EReal) (wq wk : γ → δ → EReal)
    (hx : ∀ n k, ∃ r : ℝ, x n k = (r : EReal)) (hT : ∀ m k, ∃ r : ℝ, T m k = (r : EReal))
    (hq : ∀ k d, ∃ r : ℝ, wq k d = (r : EReal)) (hk : ∀ k d, ∃ r : ℝ, wk k d = (r : EReal))
    (n : ν) (c : γ) : outEarly x T wq wk n c = outLate x T wq wk n c := by
  choose x' hx' using hx
  choose T' hT' using hT
  choose q' hq' using hq
  choose k' hk' using hk
  obtain rfl : x = fun n k => ((x' n k : ℝ) : EReal) := funext fun n => funext fun k => hx' n k
  obtain rfl : T = fun m k => ((T' m k : ℝ) : EReal) := funext fun m => funext fun k => hT' m k
  obtain rfl : wq = fun k d => ((q' k d : ℝ) : EReal) := funext fun k => funext fun d => hq' k d
  obtain rfl : wk = fun k d => ((k' k d : ℝ) : EReal) := funext fun k => funext fun d => hk' k d
  have hs : ∀ m, score (fun n k => ((x' n k : ℝ) : EReal)) (fun m k => ((T' m k : ℝ) : EReal))
        (fun k d => ((q' k d : ℝ) : EReal)) (fun k d => ((k' k d : ℝ) : EReal)) n m
      = ((∑ d, (∑ k, x' n k * q' k d) * (∑ k, T' m k * k' k d) : ℝ) : EReal) := by
    intro m
    unfold score proj
    simp only [coe_dot]
  obtain ⟨r, hr⟩ := fold_max_coe fun m => ∑ d, (∑ k, x' n k * q' k d) * (∑ k, T' m k * k' k d)
  have hw : ∀ m, wgt (fun n k => ((x' n k : ℝ) : EReal)) (fun m k => ((T' m k : ℝ) : EReal))
        (fun k d => ((q' k d : ℝ) : EReal)) (fun k d => ((k' k d : ℝ) : EReal)) n m
      = ((Real.exp ((∑ d, (∑ k, x' n k * q' k d) * (∑ k, T' m k * k' k d)) - r) : ℝ) : EReal) := by
    intro m
    unfold wgt rowTop
    simp only [hs]
    rw [hr, ← EReal.coe_sub, Ideal.exp_coe]
  unfold outEarly outLate den
  simp only [hw]
  exact congrArg _ (weighted_div _ _ fun m => Real.exp_pos _).symm

end Law

end Cert.LibSoftmaxAttn

end
-- ==== Proof.LibKeepdims.lean ====
/-
  Layout and reduction facts a row-wise kernel needs when its payload is read at one index, over the extended reals:
  the column forms of a "keep the reduced axis" computation — a vector of row values viewed as a one-column matrix,
  and a one-column matrix spread over every column —, a row's maximum as the fold of `max` over the row's entries, the
  two binary words that encode `-∞`, and the two pointwise operations (absolute value, rounding to even) at an index.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section AtIdeal
variable {s : Shape} {φ : FTy}

/-- An absolute value at an index is the larger of the element and its negation … -/
theorem absf_apply (a : FVec Ideal s φ) (i : s.Idx) : absf a i = max (a i) (-(a i)) := rfl
/-- … and a rounding to even rounds the element. -/
theorem roundeven_apply (a : FVec Ideal s φ) (i : s.Idx) : roundeven a i = Ideal.liftRound Ideal.roundHalfEven (a i) := rfl

end AtIdeal

/-- At the extended reals a scalar constant is what its word denotes. -/
theorem scalar_ofBits (φ : FTy) (b : BitVec φ.bits) : Scalar.ofBits (F := Ideal) φ b = Ideal.ofBits φ b := rfl

/-- The f32 word `0xFF800000` is `-∞`. -/
theorem negInf_f32 : Ideal.ofBits .f32 0xFF800000#32 = (⊥ : EReal) := by simp [Ideal.ofBits, Ideal.ieee]
/-- The bf16 word `0xFF80` is `-∞`. -/
theorem negInf_bf16 : Ideal.ofBits .bf16 0xFF80#16 = (⊥ : EReal) := by simp [Ideal.ofBits, Ideal.ieee]

/-- A row's maximum: the `maximumf` reduction of an `[a, b]` array over its columns reads, at row `p`, the fold of
    `max` from the accumulator's value over the row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (src ∘ h.lift (ix1 p)) = _
  congr 1
  funext k
  show src (h.lift (ix1 p) k) = src (ix2 p k)
  congr 1
  funext d; apply Fin.ext
  match d with
  | ⟨0, _⟩ => rfl
  | ⟨1, _⟩ => rfl

end Cert.LibKeepdims
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.KernelBlock.lean ====
/-
  What one grid point computes, read entry by entry over the extended reals.

  The body works on one batch: it loads the query rows `x` ([1, 1024, 512]), the key/value rows `T` ([1, 1024, 512]) and the
  two projection matrices ([1, 512, 512] each), drops the unit batch axis, and computes
    A = x · Wq,  B = T · Wk               (two matrix products, rows by columns),
    S = A · Bᵀ                             (a matrix product, rows by rows: both contracted on their second coordinate),
    P = exp (S − rowmax S)                 (the row maximum kept as a one-column matrix and spread over the columns),
    out = x + (P · T) / rowsum P           (the row sum kept as a one-column matrix and spread over the columns),
  with changes of float format in between, which are the identity on the extended reals. The body is cut into
  four stages — a projection, the scores, the weights, the output — and each stage is read at an index from its
  operands at indices; put together, the entry at row `n`, column `c` is the one-batch step `outLate` of the loaded
  blocks seen as matrices.
-/
import proofs.«133939_j37452114821260_2_alg».proof.Proof.Gen.KernelIdeal.Skeleton
import proofs.«133939_j37452114821260_2_alg».proof.Proof.LibSoftmaxAttn
import proofs.«133939_j37452114821260_2_alg».proof.Proof.LibKeepdims
import proofs.«133939_j37452114821260_2_alg».proof.Proof.LibMatmulIdx
import proofs.«133939_j37452114821260_2_alg».proof.Proof.LibRowSum
import Idealize.ShloMosaic.Lib.ValueIdx
import Idealize.ShloMosaic.Lib.ValueLayout
import Idealize.ShloMosaic.Lib.Pipeline.Value

open scoped BigOperators

noncomputable section

namespace Cert.KernelIdeal.Block

open Idealize.ShloMosaic Idealize.ShloMosaic.ValueIdx Cert.KernelIdeal Cert.KernelIdeal.Gen Cert.LibSoftmaxAttn

/-! ## The four stages of the body -/

/-- A projection: the rows `a` (unit batch axis dropped) times the matrix `w` (likewise), into zero. -/
def stProj (a : Vec Ideal S1x1024x512 .f32) (w : Vec Ideal S1x512x512 .f32) : FVec Ideal S1024x512 .f32 :=
  matmul dot_S1024x512_S512x512_S1024x512_1_0_0_1_n_n none
    (truncf .bf16 (shapeCast S1024x512 a shapeCasts_S1x1024x512_S1024x512) bitsLt_bf16_f32)
    (truncf .bf16 (shapeCast S512x512 w shapeCasts_S1x512x512_S512x512) bitsLt_bf16_f32)
    (constant S1024x512 .f32 0x00000000#32)

/-- The scores: projected queries against projected keys, both contracted on their second coordinate. -/
def stScore (A B : FVec Ideal S1024x512 .f32) : FVec Ideal S1024x1024 .f32 :=
  matmul dot_S1024x512_S1024x512_S1024x1024_1_1_0_0_n_n none (truncf .bf16 A bitsLt_bf16_f32) (truncf .bf16 B bitsLt_bf16_f32)
    (constant S1024x1024 .f32 0x00000000#32)

/-- The weights: the exponential of each score less its row's maximum. -/
def stWgt (S : FVec Ideal S1024x1024 .f32) : FVec Ideal S1024x1024 .f32 :=
  exp (subf S (broadcastTo S1024x1024
    (shapeCast S1024x1 (multiReduction .maximumf [1] S1024 S 0xFF800000#32 reduces_S1024x1024_S1024 (.inl rfl) rfl)
      shapeCasts_S1024_S1024x1) broadcasts_S1024x1_S1024x1024))

/-- The output block: the residual rows plus the weighted value rows over the row sums of the weights. -/
def stOut (x1 : FVec Ideal S1024x512 .f32) (P : FVec Ideal S1024x1024 .f32) (Tb : FVec Ideal S1024x512 .bf16) :
    FVec Ideal S1x1024x512 .f32 :=
  shapeCast S1x1024x512
    (addf x1 (divf
      (matmul dot_S1024x1024_S1024x512_S1024x512_1_0_0_1_n_n none (truncf .bf16 P bitsLt_bf16_f32) Tb
        (constant S1024x512 .f32 0x00000000#32))
      (broadcastTo S1024x512
        (shapeCast S1024x1 (multiReduction .add [1] S1024 P 0x00000000#32 reduces_S1024x1024_S1024 (.inl rfl) rfl)
          shapeCasts_S1024_S1024x1) broadcasts_S1024x1_S1024x512)))
    shapeCasts_S1024x512_S1x1024x512

/-- The body's one stored value is the four stages composed. -/
theorem pay_eq (v0 v2 : Vec Ideal S1x1024x512 .f32) (v4 v6 : Vec Ideal S1x512x512 .f32) :
    k0_pay1 (F := Ideal) v0 v2 v4 v6
      = stOut (shapeCast S1024x512 v0 shapeCasts_S1x1024x512_S1024x512)
          (stWgt (stScore (stProj v0 v4) (stProj v2 v6)))
          (truncf .bf16 (shapeCast S1024x512 v2 shapeCasts_S1x1024x512_S1024x512) bitsLt_bf16_f32) := rfl

/-! ## Each stage at an index -/

/-- A projection at row `n`, column `d`: the sum over `k` of the row's entry times the matrix's. -/
theorem stProj_apply (a : Vec Ideal S1x1024x512 .f32) (w : Vec Ideal S1x512x512 .f32) (n : Fin 1024) (d : Fin 512) :
    stProj a w (ix2 n d) = proj (fun n k => a (ix3 (0 : Fin 1) n k)) (fun k d => w (ix3 (0 : Fin 1) k d)) n d := by
  unfold stProj proj
  refine (LibMatmulIdx.matmul_rc_apply _ none _ _ n d).trans ?_
  exact Finset.sum_congr rfl fun k _ =>
    congrArg₂ (· * ·) (shapeCast_1ab_ab_apply a _ n k) (shapeCast_1ab_ab_apply w _ k d)

/-- A score at `(n, m)`: the inner product of row `n` of the one operand and row `m` of the other. -/
theorem stScore_apply (A B : FVec Ideal S1024x512 .f32) (n m : Fin 1024) :
    stScore A B (ix2 n m) = ∑ d : Fin 512, A (ix2 n d) * B (ix2 m d) := by
  unfold stScore
  exact LibMatmulIdx.matmul_rr_apply _ none _ _ n m

/-- A weight at `(n, m)`: the exponential of the score less the largest score of row `n`. -/
theorem stWgt_apply (S : FVec Ideal S1024x1024 .f32) (n m : Fin 1024) :
    stWgt S (ix2 n m)
      = Ideal.exp (S (ix2 n m) - (Finset.univ : Finset (Fin 1024)).fold max ⊥ (fun m' => S (ix2 n m'))) := by
  unfold stWgt
  have hb : broadcastTo S1024x1024
      (shapeCast S1024x1 (multiReduction .maximumf [1] S1024 S 0xFF800000#32 reduces_S1024x1024_S1024 (.inl rfl) rfl)
        shapeCasts_S1024_S1024x1) broadcasts_S1024x1_S1024x1024 (ix2 n m)
      = (Finset.univ : Finset (Fin 1024)).fold max ⊥ (fun m' => S (ix2 n m')) := by
    rw [LibKeepdims.broadcastTo_a1_ab_apply, LibKeepdims.shapeCast_a_a1_apply]
    refine (LibKeepdims.rowMax_apply S _ _ _ _ n).trans ?_
    rw [LibKeepdims.negInf_f32]
  exact congrArg (fun z => Ideal.exp (S (ix2 n m) - z)) hb

/-- The output at `(u, n, c)`: the residual entry plus the weighted total of column `c` of the values over the
    total weight of row `n`. -/
theorem stOut_apply (x1 : FVec Ideal S1024x512 .f32) (P : FVec Ideal S1024x1024 .f32) (Tb : FVec Ideal S1024x512 .bf16)
    (u : Fin 1) (n : Fin 1024) (c : Fin 512) :
    stOut x1 P Tb (ix3 u n c)
      = x1 (ix2 n c) + Ideal.div (∑ m : Fin 1024, P (ix2 n m) * Tb (ix2 m c)) (∑ m : Fin 1024, P (ix2 n m)) := by
  unfold stOut
  rw [shapeCast_ab_1ab_apply, addf_apply, divf_apply]
  have hnum : matmul dot_S1024x1024_S1024x512_S1024x512_1_0_0_1_n_n none (truncf .bf16 P bitsLt_bf16_f32) Tb
      (constant (F := Ideal) S1024x512 .f32 0x00000000#32) (ix2 n c) = ∑ m : Fin 1024, P (ix2 n m) * Tb (ix2 m c) :=
    LibMatmulIdx.matmul_rc_apply _ none _ _ n c
  have hden : broadcastTo S1024x512
      (shapeCast S1024x1 (multiReduction .add [1] S1024 P 0x00000000#32 reduces_S1024x1024_S1024 (.inl rfl) rfl)
        shapeCasts_S1024_S1024x1) broadcasts_S1024x1_S1024x512 (ix2 n c) = ∑ m : Fin 1024, P (ix2 n m) := by
    rw [LibKeepdims.broadcastTo_a1_ab_apply, LibKeepdims.shapeCast_a_a1_apply]
    exact LibRowSum.rowSum_apply P _ _ _ _ n
  rw [hnum, hden]

/-! ## The body's value at an index -/

/-- The stored block at `(u, n, c)` is the one-batch step, dividing after the weighted sum, of the four loaded
    blocks seen as matrices. -/
theorem pay_apply (v0 v2 : Vec Ideal S1x1024x512 .f32) (v4 v6 : Vec Ideal S1x512x512 .f32) (u : Fin 1) (n : Fin 1024) (c : Fin 512) :
    k0_pay1 (F := Ideal) v0 v2 v4 v6 (ix3 u n c)
      = outLate (fun n k => v0 (ix3 (0 : Fin 1) n k)) (fun m k => v2 (ix3 (0 : Fin 1) m k))
          (fun k d => v4 (ix3 (0 : Fin 1) k d)) (fun k d => v6 (ix3 (0 : Fin 1) k d)) n c := by
  rw [pay_eq, stOut_apply]
  simp only [stWgt_apply, stScore_apply, stProj_apply, truncf_apply, shapeCast_1ab_ab_apply]
  rfl

end Cert.KernelIdeal.Block

end
-- ==== Proof.AttnArrays.lean ====
/-
  The residual attention step over a whole batched array: batch `t` of the result is the one-batch step
  applied to batch `t` of each of the four inputs. Both orders of normalising are spelt (see the one-batch file for
  what they are), and on inputs whose entries are all real numbers they are the same array.
-/
import proofs.«133939_j37452114821260_2_alg».proof.Proof.LibSoftmaxAttn
import Idealize.ShloMosaic.Lib.ValueIdx

noncomputable section

namespace Cert.LibSoftmaxAttn

open Idealize.ShloMosaic Idealize.ShloMosaic.ValueIdx

/-- Batch `t` of a rank-three array, as a matrix. -/
def batch {a b c : ℕ} (x : (⟨3, ![a, b, c]⟩ : Shape).Idx → EReal) (t : Fin a) : Fin b → Fin c → EReal :=
  fun n k => x (ix3 t n k)

/-- The whole result, dividing after the weighted sum: entry `(t, n, c)` is the one-batch step on batch `t`. -/
def attnLate (x T : (⟨3, ![16, 1024, 512]⟩ : Shape).Idx → EReal) (wq wk : (⟨3, ![16, 512, 512]⟩ : Shape).Idx → EReal) :
    (⟨3, ![16, 1024, 512]⟩ : Shape).Idx → EReal :=
  fun i => outLate (batch x (i 0)) (batch T (i 0)) (batch wq (i 0)) (batch wk (i 0)) (i 1) (i 2)

/-- The whole result, normalising the weights before the weighted sum. -/
def attnEarly (x T : (⟨3, ![16, 1024, 512]⟩ : Shape).Idx → EReal) (wq wk : (⟨3, ![16, 512, 512]⟩ : Shape).Idx → EReal) :
    (⟨3, ![16, 1024, 512]⟩ : Shape).Idx → EReal :=
  fun i => outEarly (batch x (i 0)) (batch T (i 0)) (batch wq (i 0)) (batch wk (i 0)) (i 1) (i 2)

/-- On inputs all of whose entries are real, the two orders give one array. -/
theorem attnEarly_eq_attnLate (x T : (⟨3, ![16, 1024, 512]⟩ : Shape).Idx → EReal)
    (wq wk : (⟨3, ![16, 512, 512]⟩ : Shape).Idx → EReal)
    (hx : ∀ i, ∃ r : ℝ, x i = (r : EReal)) (hT : ∀ i, ∃ r : ℝ, T i = (r : EReal))
    (hq : ∀ i, ∃ r : ℝ, wq i = (r : EReal)) (hk : ∀ i, ∃ r : ℝ, wk i = (r : EReal)) :
    attnEarly x T wq wk = attnLate x T wq wk := by
  funext i
  haveI : Nonempty (Fin 1024) := ⟨0⟩
  exact outEarly_eq_outLate _ _ _ _ (fun n k => hx _) (fun m k => hT _) (fun k d => hq _) (fun k d => hk _) _ _

end Cert.LibSoftmaxAttn

end
-- ==== Proof.KernelWhole.lean ====
/-
  From one grid point's block to the whole result array.

  The grid has sixteen points, one per batch. At point `t` every window — the queries, the keys, the two
  projection matrices and the result — stages the block `(t, 0, 0)` of its array, that is the whole of batch `t`.
  So what point `t` writes back is batch `t` of the whole-array step `attnLate` of the four argument arrays:
  the body's value at `(0, n, c)` is the one-batch step of the loaded blocks, and the loaded blocks are batch `t` of
  the arguments. The sixteen result blocks tile the result array (the entry `(t, n, c)` lies in point `t`'s block), so
  after the run the result array is `attnLate` of the arguments everywhere.
-/
import proofs.«133939_j37452114821260_2_alg».proof.Proof.Gen.KernelIdeal.Value
import proofs.«133939_j37452114821260_2_alg».proof.Proof.KernelBlock
import proofs.«133939_j37452114821260_2_alg».proof.Proof.AttnArrays

noncomputable section

namespace Cert.KernelIdeal.Whole

open Cert.KernelIdeal Cert.KernelIdeal.Gen Idealize.ShloMosaic Idealize.ShloMosaic.TcCoe Idealize.SL.Sem
  Idealize.ShloMosaic.ValueIdx Cert.LibSoftmaxAttn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The result array as one function of the argument arrays as the region finds them. -/
abbrev result (c : Dev nD) : S16x1024x512.Idx → Elt Ideal .f32 :=
  attnLate (V m c main_arg0) (V m c main_arg1) (V m c main_arg2) (V m c main_arg3)

/-- At grid point `t` every window's block index is `(t, 0, 0)` (decided over the sixteen points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The body's value on blocks that are batch `b` of four arrays is batch `b` of the whole-array step: stated over
    plain vectors and indices, to be used at a grid point's blocks. -/
theorem block_entry (v0 v2 : Vec Ideal S1x1024x512 .f32) (v4 v6 : Vec Ideal S1x512x512 .f32)
    (x T : S16x1024x512.Idx → EReal) (wq wk : S16x512x512.Idx → EReal) (b : Fin 16)
    (h0 : ∀ (n : Fin 1024) (k : Fin 512), v0 (ix3 (0 : Fin 1) n k) = x (ix3 b n k))
    (h2 : ∀ (n : Fin 1024) (k : Fin 512), v2 (ix3 (0 : Fin 1) n k) = T (ix3 b n k))
    (h4 : ∀ (k : Fin 512) (d : Fin 512), v4 (ix3 (0 : Fin 1) k d) = wq (ix3 b k d))
    (h6 : ∀ (k : Fin 512) (d : Fin 512), v6 (ix3 (0 : Fin 1) k d) = wk (ix3 b k d))
    (j : S1x1024x512.Idx) (i : S16x1024x512.Idx)
    (hi0 : (i 0).val = b.val) (hi1 : (i 1).val = (j 1).val) (hi2 : (i 2).val = (j 2).val) :
    k0_pay1 (F := Ideal) v0 v2 v4 v6 j = attnLate x T wq wk i := by
  obtain ⟨u, n, c, rfl⟩ : ∃ (u : Fin 1) (n : Fin 1024) (c : Fin 512), j = ix3 u n c := ⟨j 0, j 1, j 2, eq_ix3 j⟩
  have e0 : i 0 = b := Fin.ext hi0
  have e1 : i 1 = n := Fin.ext hi1
  have e2 : i 2 = c := Fin.ext hi2
  rw [Block.pay_apply]
  unfold attnLate
  rw [e0, e1, e2]
  have b0 : (fun n k => v0 (ix3 (0 : Fin 1) n k)) = batch x b := funext fun n => funext fun k => h0 n k
  have b2 : (fun n k => v2 (ix3 (0 : Fin 1) n k)) = batch T b := funext fun n => funext fun k => h2 n k
  have b4 : (fun k d => v4 (ix3 (0 : Fin 1) k d)) = batch wq b := funext fun k => funext fun d => h4 k d
  have b6 : (fun k d => v6 (ix3 (0 : Fin 1) k d)) = batch wk b := funext fun k => funext fun d => h6 k d
  rw [b0, b2, b4, b6]

/-- What grid point `t` writes back is block `t` of the whole-array step of the arguments. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1x1024x512) hz, View.ld_unit_zero (S := S1x512x512) hz]
  obtain ⟨⟨a00, a01, a02⟩, ⟨a10, a11, a12⟩, ⟨a20, a21, a22⟩, ⟨a30, a31, a32⟩, ⟨a40, a41, a42⟩⟩ := idx_facts t
  funext j
  show k0_pay1 (F := Ideal) (iblk m c 0 t) (iblk m c 1 t) (iblk m c 2 t) (iblk m c 3 t) j
    = result m c (((cfg0.win 4).blk t).view.emb j)
  refine block_entry _ _ _ _ _ _ _ _ ⟨t.val, t.isLt⟩ ?_ ?_ ?_ ?_ j _ ?_ ?_ ?_
  · intro n k
    show V m c main_arg0 (((cfg0.win 0).blk t).view.emb (ix3 (0 : Fin 1) n k)) = V m c main_arg0 (ix3 ⟨t.val, t.isLt⟩ n k)
    refine congrArg _ (funext fun a => Fin.ext ?_)
    match a with
    | ⟨0, _⟩ => show win0_0.index t (0 : Fin 3) * 1 + 1 * 0 = t.val; omega
    | ⟨1, _⟩ => show win0_0.index t (1 : Fin 3) * 1024 + 1 * n.val = n.val; omega
    | ⟨2, _⟩ => show win0_0.index t (2 : Fin 3) * 512 + 1 * k.val = k.val; omega
  · intro n k
    show V m c main_arg1 (((cfg0.win 1).blk t).view.emb (ix3 (0 : Fin 1) n k)) = V m c main_arg1 (ix3 ⟨t.val, t.isLt⟩ n k)
    refine congrArg _ (funext fun a => Fin.ext ?_)
    match a with
    | ⟨0, _⟩ => show win0_1.index t (0 : Fin 3) * 1 + 1 * 0 = t.val; omega
    | ⟨1, _⟩ => show win0_1.index t (1 : Fin 3) * 1024 + 1 * n.val = n.val; omega
    | ⟨2, _⟩ => show win0_1.index t (2 : Fin 3) * 512 + 1 * k.val = k.val; omega
  · intro k d
    show V m c main_arg2 (((cfg0.win 2).blk t).view.emb (ix3 (0 : Fin 1) k d)) = V m c main_arg2 (ix3 ⟨t.val, t.isLt⟩ k d)
    refine congrArg _ (funext fun a => Fin.ext ?_)
    match a with
    | ⟨0, _⟩ => show win0_2.index t (0 : Fin 3) * 1 + 1 * 0 = t.val; omega
    | ⟨1, _⟩ => show win0_2.index t (1 : Fin 3) * 512 + 1 * k.val = k.val; omega
    | ⟨2, _⟩ => show win0_2.index t (2 : Fin 3) * 512 + 1 * d.val = d.val; omega
  · intro k d
    show V m c main_arg3 (((cfg0.win 3).blk t).view.emb (ix3 (0 : Fin 1) k d)) = V m c main_arg3 (ix3 ⟨t.val, t.isLt⟩ k d)
    refine congrArg _ (funext fun a => Fin.ext ?_)
    match a with
    | ⟨0, _⟩ => show win0_3.index t (0 : Fin 3) * 1 + 1 * 0 = t.val; omega
    | ⟨1, _⟩ => show win0_3.index t (1 : Fin 3) * 512 + 1 * k.val = k.val; omega
    | ⟨2, _⟩ => show win0_3.index t (2 : Fin 3) * 512 + 1 * d.val = d.val; omega
  · show win0_4.index t (0 : Fin 3) * 1 + 1 * (j 0).val = t.val
    have hj : (j 0).val < 1 := (j 0).isLt
    omega
  · show win0_4.index t (1 : Fin 3) * 1024 + 1 * (j 1).val = (j 1).val
    omega
  · show win0_4.index t (2 : Fin 3) * 512 + 1 * (j 2).val = (j 2).val
    omega

/-- An index of the result array is in point `t`'s block iff each coordinate is in the block's range on its axis. -/
theorem mem_blk (t : Fin cfg0.N) (i : S16x1024x512.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v0).slice (win0_4.rect t)).set ↔ _
  rw [View.set_slice_whole, Rect.mem_set_unit]
  exact Iff.rfl

/-- Every entry `(t, n, c)` of the result array lies in the block of grid point `t`. -/
theorem cover (i : S16x1024x512.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 512 := (i 2).isLt
  refine ⟨⟨(i 0).val, hi0⟩, flush0_4 _, ?_⟩
  obtain ⟨-, -, -, -, ⟨a40, a41, a42⟩⟩ := idx_facts ⟨(i 0).val, hi0⟩
  rw [mem_blk]
  intro a
  match a with
  | ⟨0, _⟩ =>
    show win0_4.index ⟨(i 0).val, hi0⟩ (0 : Fin 3) * 1 ≤ (i 0).val ∧ (i 0).val < win0_4.index ⟨(i 0).val, hi0⟩ (0 : Fin 3) * 1 + 1
    have e : (⟨(i 0).val, hi0⟩ : Fin cfg0.N).val = (i 0).val := rfl
    omega
  | ⟨1, _⟩ =>
    show win0_4.index ⟨(i 0).val, hi0⟩ (1 : Fin 3) * 1024 ≤ (i 1).val ∧ (i 1).val < win0_4.index ⟨(i 0).val, hi0⟩ (1 : Fin 3) * 1024 + 1024
    omega
  | ⟨2, _⟩ =>
    show win0_4.index ⟨(i 0).val, hi0⟩ (2 : Fin 3) * 512 ≤ (i 2).val ∧ (i 2).val < win0_4.index ⟨(i 0).val, hi0⟩ (2 : Fin 3) * 512 + 512
    omega

/-- After the run the result array is the whole-array step of the argument arrays. -/
theorem final (c : Dev nD) : (dats m 0 c).arrAt 4 cfg0.N = result m c :=
  (dats m 0 c).arrAt_eq_of_cover 4 (result m c) (fun t _ => flushed_eq m c t) cover

/-- The kernel's run: every weakly fair execution terminates with the result array at the whole-array step of the
    arguments, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefRead.lean ====
/-
  The reference's result, read entry by entry over the extended reals.

  The reference works on the whole batched arrays: three batched matrix products give the scores, a row maximum (taken
  from `−∞`, and once more compared with `−∞`, which changes nothing) is subtracted, the exponentials are summed along
  each row (from `0`, which adds nothing), EVERY weight is divided by its row's sum, and a fourth batched product
  with the value rows is added to the residual. Read at the entry `(t, n, c)` each operation sees batch `t` only, and
  the whole is the one-batch step that normalises the weights before the weighted sum, `outEarly`, on batch `t` of the
  four arguments.
-/
import proofs.«133939_j37452114821260_2_alg».proof.Proof.Gen.ReferenceIdeal.Read
import proofs.«133939_j37452114821260_2_alg».proof.Proof.AttnArrays
import proofs.«133939_j37452114821260_2_alg».proof.Proof.LibKeepdims
import Idealize.ShloMosaic.Lib.ValueIdx
import Idealize.ShloMosaic.PureOps.Ideal.Laws

open scoped BigOperators

noncomputable section

namespace Cert.ReferenceIdeal.RefValue

open Idealize.ShloMosaic Idealize.ShloMosaic.ValueIdx Cert.ReferenceIdeal Cert.ReferenceIdeal.Gen Cert.ReferenceIdeal.Read
  Cert.LibSoftmaxAttn

variable (x0 x1 : (⟨S16x1024x512, .f32⟩ : BufTy).Contents (Elt Ideal)) (x2 x3 : (⟨S16x512x512, .f32⟩ : BufTy).Contents (Elt Ideal))

/-- The scores' array reduces over its last axis to the rows' array. -/
theorem hred : S16x1024x1024.Reduces [2] S16x1024 := by decide

/-- The projected queries at `(t, n, d)`. -/
theorem read_v0 (t : Fin 16) (n : Fin 1024) (d : Fin 512) :
    val_main_v0 (F := Ideal) x0 x2 (ix3 t n d) = proj (batch x0 t) (batch x2 t) n d := by
  have el : ∀ k, lidx_main_v0 (ix3 t n d) k = ix3 t n k := fun k => funext fun a => Fin.ext (by
    match a with | ⟨0, _⟩ => rfl | ⟨1, _⟩ => rfl | ⟨2, _⟩ => rfl)
  have er : ∀ k, ridx_main_v0 (ix3 t n d) k = ix3 t k d := fun k => funext fun a => Fin.ext (by
    match a with | ⟨0, _⟩ => rfl | ⟨1, _⟩ => rfl | ⟨2, _⟩ => rfl)
  rw [val_main_v0_apply]
  simp only [el, er]
  rfl

/-- The projected keys at `(t, m, d)`. -/
theorem read_v1 (t : Fin 16) (m : Fin 1024) (d : Fin 512) :
    val_main_v1 (F := Ideal) x1 x3 (ix3 t m d) = proj (batch x1 t) (batch x3 t) m d := by
  have el : ∀ k, lidx_main_v1 (ix3 t m d) k = ix3 t m k := fun k => funext fun a => Fin.ext (by
    match a with | ⟨0, _⟩ => rfl | ⟨1, _⟩ => rfl | ⟨2, _⟩ => rfl)
  have er : ∀ k, ridx_main_v1 (ix3 t m d) k = ix3 t k d := fun k => funext fun a => Fin.ext (by
    match a with | ⟨0, _⟩ => rfl | ⟨1, _⟩ => rfl | ⟨2, _⟩ => rfl)
  rw [val_main_v1_apply]
  simp only [el, er]
  rfl

/-- The score at `(t, n, m)`. -/
theorem read_v2 (t : Fin 16) (n m : Fin 1024) :
    val_main_v2 (F := Ideal) x0 x1 x2 x3 (ix3 t n m) = score (batch x0 t) (batch x1 t) (batch x2 t) (batch x3 t) n m := by
  have el : ∀ k, lidx_main_v2 (ix3 t n m) k = ix3 t n k := fun k => funext fun a => Fin.ext (by
    match a with | ⟨0, _⟩ => rfl | ⟨1, _⟩ => rfl | ⟨2, _⟩ => rfl)
  have er : ∀ k, ridx_main_v2 (ix3 t n m) k = ix3 t m k := fun k => funext fun a => Fin.ext (by
    match a with | ⟨0, _⟩ => rfl | ⟨1, _⟩ => rfl | ⟨2, _⟩ => rfl)
  rw [val_main_v2_apply]
  simp only [el, er, read_v0, read_v1]
  rfl

/-- The row maximum at `(t, n)`: the fold of `max` from `−∞` over the row's scores. -/
theorem read_v3 (t : Fin 16) (n : Fin 1024) :
    val_main_v3 (F := Ideal) x0 x1 x2 x3 (ix2 t n) = rowTop (batch x0 t) (batch x1 t) (batch x2 t) (batch x3 t) n := by
  unfold val_main_v3
  rw [Host.reduce_eq_fold_single FloatOps.maximumf _ _ reducesTo_S16x1024x1024_S16x1024_d2 hred h_S_]
  show (Finset.univ : Finset (Fin 1024)).fold max (Ideal.ofBits .f32 0xFF800000#32)
      (fun m => val_main_v2 (F := Ideal) x0 x1 x2 x3 (hred.lift (ix2 t n) m)) = _
  rw [LibKeepdims.negInf_f32]
  unfold rowTop
  refine congrArg (fun f => (Finset.univ : Finset (Fin 1024)).fold max ⊥ f) (funext fun m => ?_)
  refine Eq.trans (congrArg (val_main_v2 (F := Ideal) x0 x1 x2 x3) ?_) (read_v2 x0 x1 x2 x3 t n m)
  funext a; apply Fin.ext
  match a with | ⟨0, _⟩ => rfl | ⟨1, _⟩ => rfl | ⟨2, _⟩ => rfl

/-- Comparing the row maximum with `−∞` once more changes nothing. -/
theorem read_v5 (t : Fin 16) (n : Fin 1024) :
    val_main_v5 (F := Ideal) x0 x1 x2 x3 (ix2 t n) = rowTop (batch x0 t) (batch x1 t) (batch x2 t) (batch x3 t) n := by
  rw [val_main_v5_apply, val_main_v4_apply, val_main_cst_0_apply, read_v3]
  show max (Ideal.ofBits .f32 0xFF800000#32) _ = _
  rw [LibKeepdims.negInf_f32]
  exact max_bot_left _

/-- The row maximum spread over the row. -/
theorem read_v7 (t : Fin 16) (n m : Fin 1024) :
    val_main_v7 (F := Ideal) x0 x1 x2 x3 (ix3 t n m) = rowTop (batch x0 t) (batch x1 t) (batch x2 t) (batch x3 t) n := by
  have e : idx_main_v6 (idx_main_v7 (ix3 t n m)) = ix2 t n := funext fun a => Fin.ext (by
    match a with | ⟨0, _⟩ => rfl | ⟨1, _⟩ => rfl)
  rw [val_main_v7_apply, val_main_v6_apply, e, read_v5]

/-- The unnormalised weight at `(t, n, m)`. -/
theorem read_v9 (t : Fin 16) (n m : Fin 1024) :
    val_main_v9 (F := Ideal) x0 x1 x2 x3 (ix3 t n m) = wgt (batch x0 t) (batch x1 t) (batch x2 t) (batch x3 t) n m := by
  rw [val_main_v9_apply, val_main_v8_apply, read_v2, read_v7]
  rfl

/-- The sum of a row's weights at `(t, n)` (the sum starts from `0`). -/
theorem read_v10 (t : Fin 16) (n : Fin 1024) :
    val_main_v10 (F := Ideal) x0 x1 x2 x3 (ix2 t n) = den (batch x0 t) (batch x1 t) (batch x2 t) (batch x3 t) n := by
  have e : ∀ k, idx_main_v10 (ix2 t n) k = ix3 t n k := fun k => funext fun a => Fin.ext (by
    match a with | ⟨0, _⟩ => rfl | ⟨1, _⟩ => rfl | ⟨2, _⟩ => rfl)
  rw [val_main_v10_apply, val_main_cst_1_apply]
  simp only [e, read_v9]
  show Ideal.ofBits .f32 0x00000000#32 + _ = _
  rw [Ideal.ofBits_zero_f32, zero_add]
  rfl

/-- The row's sum spread over the row. -/
theorem read_v12 (t : Fin 16) (n m : Fin 1024) :
    val_main_v12 (F := Ideal) x0 x1 x2 x3 (ix3 t n m) = den (batch x0 t) (batch x1 t) (batch x2 t) (batch x3 t) n := by
  have e : idx_main_v11 (idx_main_v12 (ix3 t n m)) = ix2 t n := funext fun a => Fin.ext (by
    match a with | ⟨0, _⟩ => rfl | ⟨1, _⟩ => rfl)
  rw [val_main_v12_apply, val_main_v11_apply, e, read_v10]

/-- The normalised weight at `(t, n, m)`. -/
theorem read_v13 (t : Fin 16) (n m : Fin 1024) :
    val_main_v13 (F := Ideal) x0 x1 x2 x3 (ix3 t n m)
      = Ideal.div (wgt (batch x0 t) (batch x1 t) (batch x2 t) (batch x3 t) n m)
          (den (batch x0 t) (batch x1 t) (batch x2 t) (batch x3 t) n) := by
  rw [val_main_v13_apply, read_v9, read_v12]
  rfl

/-- The reference's result at `(t, n, c)`. -/
theorem read_v15 (t : Fin 16) (n : Fin 1024) (c : Fin 512) :
    val_main_v15 (F := Ideal) x0 x1 x2 x3 (ix3 t n c) = outEarly (batch x0 t) (batch x1 t) (batch x2 t) (batch x3 t) n c := by
  have el : ∀ k, lidx_main_v14 (ix3 t n c) k = ix3 t n k := fun k => funext fun a => Fin.ext (by
    match a with | ⟨0, _⟩ => rfl | ⟨1, _⟩ => rfl | ⟨2, _⟩ => rfl)
  have er : ∀ k, ridx_main_v14 (ix3 t n c) k = ix3 t k c := fun k => funext fun a => Fin.ext (by
    match a with | ⟨0, _⟩ => rfl | ⟨1, _⟩ => rfl | ⟨2, _⟩ => rfl)
  rw [val_main_v15_apply, val_main_v14_apply]
  simp only [el, er, read_v13]
  rfl

/-- The reference's result array is the step that normalises first, of the four argument arrays. -/
theorem result_eq : val_main_v15 (F := Ideal) x0 x1 x2 x3 = attnEarly x0 x1 x2 x3 := by
  funext i
  obtain ⟨t, n, c, rfl⟩ : ∃ (t : Fin 16) (n : Fin 1024) (c : Fin 512), i = ix3 t n c := ⟨i 0, i 1, i 2, eq_ix3 i⟩
  exact read_v15 x0 x1 x2 x3 t n c

end Cert.ReferenceIdeal.RefValue

end
-- ==== Proof.Finite.lean ====
/-
  What the precondition gives: every entry of the four arguments is a real number.

  The precondition tests, for each argument, that the absolute value of every entry is below `+∞`, takes the
  conjunction over all entries, and then the conjunction of the four results; it says this single bit is `1`.
  A conjunction is `1` only if both sides are, a conjunction over all entries only if every entry's test is, and
  on the extended reals `max x (−x) < +∞` fails exactly at `x = +∞` and `x = −∞`: so every entry is the image
  of a real number.
-/
import proofs.«133939_j37452114821260_2_alg».proof.Pre_finite_inputs
import proofs.«133939_j37452114821260_2_alg».proof.Proof.Gen.Pre_finite_inputs
import Idealize.ShloMosaic.Lib.ReduceAll
import Idealize.ShloMosaic.Lib.ValueIdx
import Idealize.ShloMosaic.Lib.Affine

noncomputable section

namespace Cert.Pre_finite_inputs.Finite

open Idealize.ShloMosaic Idealize.ShloMosaic.ValueIdx Cert.Pre_finite_inputs

/-- The shape with no axes has one index. -/
instance : Subsingleton S_.Idx := ⟨fun a b => funext fun d => d.elim0⟩

/-- The entry test: if `|x| < +∞` reads `1` then `x` is a real number. -/
theorem real_of_test (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- If the precondition's bit is `1`, every entry of each of the four arguments is a real number. -/
theorem finite_of_pre (a0 a1 : FVec Ideal S16x1024x512 .f32) (a2 a3 : FVec Ideal S16x512x512 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  unfold fn fn_part1 at h0
  dsimp only at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_test _ (Host.reduce_andi_all _ _ _ _ _ h0' i),
    fun i => real_of_test _ (Host.reduce_andi_all _ _ _ _ _ h1 i),
    fun i => real_of_test _ (Host.reduce_andi_all _ _ _ _ _ h2 i),
    fun i => real_of_test _ (Host.reduce_andi_all _ _ _ _ _ h3 i)⟩

end Cert.Pre_finite_inputs.Finite

end
-- ==== Proof.lean ====
/-
  The certificate's claim for a fused residual attention step, sixteen batches of 1024 rows by 512 features.

  The kernel runs one grid point per batch; at a point it projects the query rows and the key rows, scores
  every query against every key, turns each row of scores into positive weights by an exponential after
  subtracting the row's maximum, forms the weighted total of the key rows, divides that total ONCE by the
  row's total weight, and adds the query rows back. The reference does the same on the whole arrays but
  divides EVERY weight by its row's total before the weighted sum.

  Over the extended reals the two are the same function of the arguments when every argument entry is a
  real number — which is what the precondition says: then scores, maxima and weights are real, the total
  weight is a positive real, and a division by it moves across the finite weighted sum (LibSoftmaxAttn.lean,
  AttnArrays.lean). The kernel's result array as that function of its arguments is KernelBlock.lean (one
  block) and KernelWhole.lean (the sixteen blocks tile the array); the reference's result as that function
  is RefRead.lean; the real-valuedness of the arguments from the precondition is Finite.lean.

  The three frames are the generated frame runs (for the reference, its generated run with the result
  dropped). The kernel's idealization rewrote no operation, so there is nothing to preserve.
-/
import proofs.«133939_j37452114821260_2_alg».proof.Defs
import proofs.«133939_j37452114821260_2_alg».proof.Proof.Gen.Kernel
import proofs.«133939_j37452114821260_2_alg».proof.Proof.Gen.Kernel.Skeleton
import proofs.«133939_j37452114821260_2_alg».proof.Proof.Gen.Kernel.Launch
import proofs.«133939_j37452114821260_2_alg».proof.Proof.Gen.Kernel.Points
import proofs.«133939_j37452114821260_2_alg».proof.Proof.Gen.Kernel.Frame
import proofs.«133939_j37452114821260_2_alg».proof.Proof.Gen.KernelIdeal
import proofs.«133939_j37452114821260_2_alg».proof.Proof.Gen.KernelIdeal.Skeleton
import proofs.«133939_j37452114821260_2_alg».proof.Proof.Gen.KernelIdeal.Launch
import proofs.«133939_j37452114821260_2_alg».proof.Proof.Gen.KernelIdeal.Points
import proofs.«133939_j37452114821260_2_alg».proof.Proof.Gen.KernelIdeal.Frame
import proofs.«133939_j37452114821260_2_alg».proof.Proof.Gen.ReferenceIdeal
import proofs.«133939_j37452114821260_2_alg».proof.Proof.Gen.KernelIdeal.Value
import proofs.«133939_j37452114821260_2_alg».proof.Proof.Gen.ReferenceIdeal.Run
import proofs.«133939_j37452114821260_2_alg».proof.Proof.Gen.ReferenceIdeal.Read
import proofs.«133939_j37452114821260_2_alg».proof.Proof.Gen.Pre_finite_inputs
import proofs.«133939_j37452114821260_2_alg».proof.Proof.KernelWhole
import proofs.«133939_j37452114821260_2_alg».proof.Proof.RefRead
import proofs.«133939_j37452114821260_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, all of whose entries are real, the kernel's result array
    (dividing once after the weighted sum) and the reference's (normalising every weight first) are one array. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := Cert.Pre_finite_inputs.Finite.finite_of_pre _ _ _ _ (hpre c)
  rw [(hagree c).1, (hagree c).2.1, (hagree c).2.2.1, (hagree c).2.2.2]
  exact (Cert.ReferenceIdeal.Read.val_main_v15_eq _ _ _ _).trans
    ((Cert.ReferenceIdeal.RefValue.result_eq _ _ _ _).trans
      (Cert.LibSoftmaxAttn.attnEarly_eq_attnLate _ _ _ _ f0 f1 f2 f3))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
